-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x512 : Shape := ⟨2, ![1024, 512]⟩
abbrev S1x1024 : Shape := ⟨2, ![1, 1024]⟩
abbrev S1024x1024 : Shape := ⟨2, ![1024, 1024]⟩
abbrev S4x2048x16384 : Shape := ⟨3, ![4, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S1x16384, .f32⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x16384_S4x2048x16384 : S8192x16384.ShapeCasts S4x2048x16384
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .i32 = 32 ∨ (Rect.block (s := S16384x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x16384.size a
  hwx0_4 : ∀ i : grid0.Coords, EltTy.bits .f32 = 32 ∨ (Rect.block (s := S8192x16384) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S4x2048x16384 : Shape := ⟨3, ![4, 2048, 16384]⟩
abbrev S1x1x16384 : Shape := ⟨3, ![1, 1, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S4x2048x16384, .f32⟩
  | .hbm, ⟨6, _⟩ => ⟨S1x1x16384, .f32⟩
  | .hbm, ⟨7, _⟩ => ⟨S4x2048x16384, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | .hbm, ⟨12, _⟩ => ⟨S4x2048x16384, .f32⟩
  | .hbm, ⟨13, _⟩ => ⟨S4x2048x16384, .f32⟩
  | .hbm, ⟨14, _⟩ => ⟨S_, .f32⟩
  | .hbm, ⟨15, _⟩ => ⟨S4x2048x16384, .f32⟩
  | .hbm, ⟨16, _⟩ => ⟨S4x2048x16384, .f32⟩
  | .hbm, ⟨17, _⟩ => ⟨S4x2048x16384, .f32⟩
  | .hbm, ⟨18, _⟩ => ⟨S_, .f32⟩
  | .hbm, ⟨19, _⟩ => ⟨S4x2048x16384, .f32⟩
  | .hbm, ⟨20, _⟩ => ⟨S4x2048x16384, .f32⟩
  | .hbm, ⟨21, _⟩ => ⟨S4x2048x16384, .f32⟩
  | .hbm, ⟨22, _⟩ => ⟨S_, .f32⟩
  | .hbm, ⟨23, _⟩ => ⟨S4x2048x16384, .f32⟩
  | .hbm, ⟨24, _⟩ => ⟨S4x2048x16384, .f32⟩
  | .hbm, ⟨25, _⟩ => ⟨S_, .f32⟩
  | .hbm, ⟨26, _⟩ => ⟨S4x2048x16384, .f32⟩
  | .hbm, ⟨27, _⟩ => ⟨S4x2048x16384, .f32⟩
  | .hbm, ⟨28, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  bcast_S_S4x2048x16384 : S_.BroadcastsInDim S4x2048x16384 (![] : Fin 0 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What one run of the kernel body leaves behind, as values, at any float instance.

  The body keeps a [1024, 1024] accumulator in scratch memory across the eight points of the contraction axis. At the
  first of them it stores a block of zeros, reads it back and stores `zeros + a·wᵀ`; at every later one it stores
  `acc + a·wᵀ` over what the point before left; at the last it also reads the accumulator it has just stored and
  writes the activated block into the output's buffer. Each store covers its whole buffer through the rectangle at
  zero offsets, so what a buffer holds afterwards is the LAST store's payload, and a load between two stores reads
  the earlier store's payload. Here `k0_pay1` is the zero block, `k0_pay2 a w acc` the accumulation step and
  `k0_pay3 acc scale bias` the activated block, as the generated skeleton names them.
-/
import proofs.«177795_j82214263980556_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 rectangle, as the constant function the library's lemmas ask for. -/
theorem hz : (![0, 0] : Fin 2 → Nat) = fun _ => 0 := funext fun a => by fin_cases a <;> rfl

/-- First point of a contraction run: the accumulator ends at the step applied to the zero block. -/
theorem acc_first (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S1024x512 .i32) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle point: the accumulator ends at the step applied to what the point before left (`xs0`). -/
theorem acc_middle (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S1024x512 .i32) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) hz]
  simp only [View.readAt_eq_ld, harg3.read_unread, harg4.read_unread, harg8.read_unread,
    View.ld_unit_zero (S := S1024x512) hz, View.ld_unit_zero (S := S1024x1024) hz]

/-- The last point: the accumulator ends at the same step … -/
theorem acc_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .i32) (x2 : Vec F S1x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) hz]
  simp only [View.readAt_eq_ld, harg3.read_unread, harg4.read_unread, harg8.read_unread,
    View.ld_unit_zero (S := S1024x512) hz, View.ld_unit_zero (S := S1024x1024) hz]

/-- … and the output's buffer at the activated block of that accumulator, the channel's scale row and bias row. -/
theorem out_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .i32) (x2 : Vec F S1x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 xs0) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread,
    harg8.read_unread, View.ld_unit_zero (S := S1024x512) hz, View.ld_unit_zero (S := S1024x1024) hz,
    View.ld_unit_zero (S := S1x1024) hz]

end Cert.KernelIdeal.Pieces

end
-- ==== Proof.Carried.lean ====
/-
  What the accumulator and the output's buffer hold after each grid point, as payloads of the point's blocks.

  The grid's 1024 points are numbered with the contraction coordinate fastest: point `n` is at contraction step
  `n % 8`. The generated frame states the buffers' contents after each point by recursion on the point, case by
  case; read through the per-case values of `Pieces` this says:

  * at a point with `n % 8 = 0` the accumulator is the step applied to the zero block;
  * at any other point it is the step applied to what the point before left;
  * at a point with `n % 8 = 7` the output's buffer is the activated block of the accumulator that point leaves.

  All at any float instance; the blocks are the windows' blocks at the point.
-/
import proofs.«177795_j82214263980556_1_alg».proof.Proof.Pieces

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The point before `t`, as a bound. -/
theorem pred_lt (t : Fin cfg0.N) : t.val - 1 < cfg0.N := Nat.lt_of_le_of_lt (Nat.sub_le _ _) t.isLt

/-- First step of a run: the accumulator restarts from zero. -/
theorem acc_at_first (c : Dev nD) (t : Fin cfg0.N) (h0 : t.val % 8 = 0) :
    (outsAt0 m c t.val t.isLt).2 = k0_pay2 (iblk m c 0 t) (iblk m c 1 t) (k0_pay1 (F := F)) := by
  have h1 : ¬t.val % 8 = 7 := by omega
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk m c 0 t) (iblk m c 1 t) (iblk m c 2 t) (iblk m c 3 t)

/-- Any later step: one more tile product on top of what the point before left. -/
theorem acc_at_next (c : Dev nD) (t : Fin cfg0.N) (h0 : ¬t.val % 8 = 0) :
    (outsAt0 m c t.val t.isLt).2
      = k0_pay2 (iblk m c 0 t) (iblk m c 1 t) (outsAt0 m c (t.val - 1) (pred_lt t)).2 := by
  by_cases h1 : t.val % 8 = 7
  · rw [outsAt0_C m c t h0 h1]
    dsimp only
    exact Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk m c 0 t) (iblk m c 1 t) (iblk m c 2 t) (iblk m c 3 t)
      (outsAt0 m c (t.val - 1) (pred_lt t)).2
  · rw [outsAt0_B m c t h0 h1]
    dsimp only
    exact Pieces.acc_middle c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) (fun h => h1 ((hcond0_1 t).mp h)) (iblk m c 0 t) (iblk m c 1 t) (iblk m c 2 t) (iblk m c 3 t)
      (outsAt0 m c (t.val - 1) (pred_lt t)).2

/-- Last step of a run: the output's buffer is the activated block of the accumulator the step leaves. -/
theorem out_at_last (c : Dev nD) (t : Fin cfg0.N) (h1 : t.val % 8 = 7) :
    (outsAt0 m c t.val t.isLt).1
      = k0_pay3 (outsAt0 m c t.val t.isLt).2 (iblk m c 2 t) (iblk m c 3 t) := by
  have h0 : ¬t.val % 8 = 0 := by omega
  rw [acc_at_next m c t h0, outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (pred_lt t)).2

end Cert.KernelIdeal.Carried

end
-- ==== Proof.Spec.lean ====
/-
  The mathematics both programs compute, with no program in sight.

  An int8-quantized linear layer with a per-channel scale and bias, followed by the tanh-approximate GELU: for an
  activation row `x` and the integer weight row `w` of output channel `o`,

      y = (∑ₑ x e · w e) · scale o + bias o,      out = gelu y.

  Two facts are proved here over the extended reals. (1) The two spellings of the GELU's last product,
  `(½ · y) · (1 + tanh u)` and `y · (½ · (1 + tanh u))`, are one number: multiplication of extended reals is
  commutative and associative, infinities included. (2) A sum over 4096 terms cut into blocks of 512 and accumulated
  block after block is the whole sum: addition of extended reals is commutative and associative, so only the
  re-indexing has to be said. Neither needs the inputs finite.
-/
import Idealize.ShloMosaic.PureOps.Ideal.Laws
import Idealize.ShloMosaic.Lib.ValueIdx

noncomputable section

namespace Cert.Q8Gelu

open Idealize.ShloMosaic

/-! ## The activation -/

/-- The argument of the hyperbolic tangent: `c₂ · (y + c₁ · ((y · y) · y))` with `c₁ = f32 0.044715` and
    `c₂ = f32 √(2/π)`, both kept as the words the two programs share. -/
def geluArg (y : EReal) : EReal :=
  Ideal.ofBits .f32 0x3F4C422A#32 * (y + Ideal.ofBits .f32 0x3D372713#32 * ((y * y) * y))

/-- The tanh-approximate GELU with the half applied to `y` first: `(½ · y) · (1 + tanh (geluArg y))`. -/
def gelu (y : EReal) : EReal :=
  (Ideal.ofBits .f32 0x3F000000#32 * y) * (Ideal.ofBits .f32 0x3F800000#32 + Ideal.tanh (geluArg y))

/-- The same with the half applied to the bracket first: `y · (½ · (1 + tanh (geluArg y)))` is `gelu y`. -/
theorem mul_half_bracket (y : EReal) :
    y * (Ideal.ofBits .f32 0x3F000000#32 * (Ideal.ofBits .f32 0x3F800000#32 + Ideal.tanh (geluArg y))) = gelu y := by
  unfold gelu
  rw [mul_left_comm, mul_assoc]

/-- The pre-activation from the contraction `s`, the channel's scale and its bias. -/
def affine (s scale bias : EReal) : EReal := s * scale + bias

/-- THE LAYER, index by index: output `(b, s, o)` of the [4, 2048, 16384] result from the [4, 2048, 4096] activations,
    the [16384, 4096] integer weights (32-bit words read as signed integers) and the [16384] scales and biases. -/
def layer (x : (⟨3, ![4, 2048, 4096]⟩ : Shape).Idx → EReal) (w : (⟨2, ![16384, 4096]⟩ : Shape).Idx → BitVec 32)
    (scale bias : (⟨1, ![16384]⟩ : Shape).Idx → EReal) (i : (⟨3, ![4, 2048, 16384]⟩ : Shape).Idx) : EReal :=
  gelu (affine (∑ e : Fin 4096, x (ValueIdx.ix3 (i 0) (i 1) e) * (((w (ValueIdx.ix2 (i 2) e)).toInt : ℝ) : EReal))
    (scale (ValueIdx.ix1 (i 2))) (bias (ValueIdx.ix1 (i 2))))

/-! ## A sum accumulated block by block -/

section Blocks

variable {M : Type*} [AddCommMonoid M]

/-- A family over `Fin N` continued by zero to every natural, so that partial sums need no bound proofs. -/
def ext0 {N : ℕ} (f : Fin N → M) (e : ℕ) : M := if h : e < N then f ⟨e, h⟩ else 0

theorem ext0_of_lt {N : ℕ} (f : Fin N → M) (e : ℕ) (h : e < N) : ext0 f e = f ⟨e, h⟩ := dif_pos h

/-- The sum of the continued family over `range N` is the family's sum. -/
theorem sum_range_ext0 {N : ℕ} (f : Fin N → M) : ∑ e ∈ Finset.range N, ext0 f e = ∑ e : Fin N, f e := by
  rw [← Fin.sum_univ_eq_sum_range]
  exact Finset.sum_congr rfl fun e _ => ext0_of_lt f e.val e.isLt

/-- One more block of 512 terms: the partial sum through block `K` is the partial sum before it plus the block's
    own 512 terms (`K < 8`, so the block lies inside the 4096). -/
theorem sum_range_block (f : Fin 4096 → M) (K : ℕ) (hK : K < 8) (g : Fin 512 → Fin 4096)
    (hg : ∀ d, (g d).val = 512 * K + d.val) :
    ∑ e ∈ Finset.range (512 * (K + 1)), ext0 f e
      = ∑ e ∈ Finset.range (512 * K), ext0 f e + ∑ d : Fin 512, f (g d) := by
  rw [show 512 * (K + 1) = 512 * K + 512 from by ring, Finset.sum_range_add]
  refine congrArg _ ((Fin.sum_univ_eq_sum_range (fun x => ext0 f (512 * K + x)) 512).symm.trans ?_)
  refine Finset.sum_congr rfl fun d _ => ?_
  have hd := d.isLt
  exact (ext0_of_lt f _ (by omega)).trans (congrArg f (Fin.ext (hg d).symm))

/-- After the eighth block the partial sum is the whole sum. -/
theorem sum_range_all (f : Fin 4096 → M) : ∑ e ∈ Finset.range (512 * (7 + 1)), ext0 f e = ∑ e : Fin 4096, f e :=
  sum_range_ext0 f

end Blocks

end Cert.Q8Gelu

end
-- ==== Proof.Payload.lean ====
/-
  The body's three payloads read at an index (row `p`, column `q` of the [1024, 1024] tile), over the extended reals.

  * the zero block is `0` everywhere;
  * the accumulation step adds to the old accumulator, at `(p, q)`, the sum over the 512 columns `d` of the activation
    tile's `(p, d)` times the integer weight tile's `(q, d)` read as the integer it is: both tiles are contracted along
    their second axis, the change of float format before the product is the identity at the ideal values, and an
    integer converts to the real number it is whatever the target format;
  * the activated block is the GELU of `acc (p, q) · scale (0, q) + bias (0, q)`: the scale and bias rows are
    broadcast down the rows of the tile.
-/
import proofs.«177795_j82214263980556_1_alg».proof.Proof.Gen.KernelIdeal.Skeleton
import proofs.«177795_j82214263980556_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.Q8Gelu

/-- The zero block. -/
theorem zero_apply (j : S1024x1024.Idx) : k0_pay1 (F := Ideal) j = 0 := by
  unfold k0_pay1
  simp only [shapeCast_self]
  exact Ideal.ofBits_zero_f32

/-- The left factor of the tile product at output `(p, q)`, contraction coordinate `d`, is at `(p, d)` … -/
theorem lhs_row (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem lhs_col (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k
/-- … and the right factor at `(q, d)`: the weight tile is contracted along its second axis too. -/
theorem rhs_row (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem rhs_col (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

/-- The accumulation step at `(p, q)`. -/
theorem step_apply (a : Vec Ideal S1024x512 .f32) (w : Vec Ideal S1024x512 .i32) (acc : Vec Ideal S1024x1024 .f32)
    (p q : Fin 1024) :
    k0_pay2 (F := Ideal) a w acc (ix2 p q)
      = acc (ix2 p q) + ∑ d : Fin 512, a (ix2 p d) * (((w (ix2 q d)).toInt : ℝ) : EReal) := by
  unfold k0_pay2
  simp only [shapeCast_self]
  show acc (ix2 p q) + FloatOps.matmul (F := Ideal) dot_S1024x512_S1024x512_S1024x1024_1_1_0_0_n_n none _ _ (constant S1024x1024 .f32 0x00000000#32) (ix2 p q) = _
  rw [Ideal.matmul_constant_zero_apply, ← Equiv.sum_comp (contrEquiv1 dot_S1024x512_S1024x512_S1024x1024_1_1_0_0_n_n 512 rfl rfl).symm]
  refine congrArg _ (Finset.sum_congr rfl fun d _ => ?_)
  have hd := contrEquiv1_symm_val dot_S1024x512_S1024x512_S1024x1024_1_1_0_0_n_n 512 rfl rfl d
  have el : dot_S1024x512_S1024x512_S1024x1024_1_1_0_0_n_n.lhsIdx (ix2 p q) ((contrEquiv1 dot_S1024x512_S1024x512_S1024x1024_1_1_0_0_n_n 512 rfl rfl).symm d) = ix2 p d :=
    funext fun x => Fin.ext (by
      match x with
      | ⟨0, _⟩ => exact lhs_row _ _
      | ⟨1, _⟩ => exact (lhs_col _ _).trans hd)
  have er : dot_S1024x512_S1024x512_S1024x1024_1_1_0_0_n_n.rhsIdx (ix2 p q) ((contrEquiv1 dot_S1024x512_S1024x512_S1024x1024_1_1_0_0_n_n 512 rfl rfl).symm d) = ix2 q d :=
    funext fun x => Fin.ext (by
      match x with
      | ⟨0, _⟩ => exact rhs_row _ _
      | ⟨1, _⟩ => exact (rhs_col _ _).trans hd)
  rw [el, er]
  rfl

/-- The hyperbolic tangent of a tile at an index is that of the element. -/
theorem tanh_apply (v : FVec Ideal S1024x1024 .f32) (j : S1024x1024.Idx) : tanh v j = Ideal.tanh (v j) := rfl

/-- The activated block at `(p, q)`. -/
theorem act_apply (acc : Vec Ideal S1024x1024 .f32) (scale bias : Vec Ideal S1x1024 .f32) (p q : Fin 1024) :
    k0_pay3 (F := Ideal) acc scale bias (ix2 p q)
      = gelu (affine (acc (ix2 p q)) (scale (ix2 (0 : Fin 1) q)) (bias (ix2 (0 : Fin 1) q))) := by
  unfold k0_pay3
  simp only [shapeCast_self]
  have hs : broadcastTo S1024x1024 scale broadcasts_S1x1024_S1024x1024 (ix2 p q) = scale (ix2 (0 : Fin 1) q) :=
    broadcastTo_1b_ab_apply scale broadcasts_S1x1024_S1024x1024 p q
  have hb : broadcastTo S1024x1024 bias broadcasts_S1x1024_S1024x1024 (ix2 p q) = bias (ix2 (0 : Fin 1) q) :=
    broadcastTo_1b_ab_apply bias broadcasts_S1x1024_S1024x1024 p q
  simp only [mulf_apply, addf_apply, broadcast_apply, tanh_apply]
  rw [hs, hb]
  rfl

end Cert.KernelIdeal.Payload

end
-- ==== Proof.Blocks.lean ====
/-
  Which tile of which array each window's block is, at grid point `n`.

  The grid is 8 × 16 × 8 (row tiles × channel tiles × contraction steps), the last coordinate fastest, so point `n`
  works on row tile `n / 128`, channel tile `n / 8 % 16` and contraction step `n % 8`. Its activation block is rows
  `1024 · (n / 128) + p`, columns `512 · (n % 8) + d` of the [8192, 4096] activations; its weight block is channels
  `1024 · (n / 8 % 16) + q`, the same columns, of the [16384, 4096] weights; its scale and bias blocks are those
  channels of the [1, 16384] rows. The three coordinate maps are total functions of `n` (reduced modulo the array's
  extent, which changes nothing below 1024 points), so that no statement carries a bound proof.
-/
import proofs.«177795_j82214263980556_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

/-- Row `p` of point `n`'s row tile, in the [8192, ·] arrays. -/
def rowAt (n : ℕ) (p : Fin 1024) : Fin 8192 := ⟨(1024 * (n / 128) + p.val) % 8192, Nat.mod_lt _ (by decide)⟩
/-- Channel `q` of point `n`'s channel tile, in the [16384, ·] and [·, 16384] arrays. -/
def chanAt (n : ℕ) (q : Fin 1024) : Fin 16384 := ⟨(1024 * (n / 8 % 16) + q.val) % 16384, Nat.mod_lt _ (by decide)⟩
/-- Column `d` of point `n`'s contraction step, in the [·, 4096] arrays. -/
def colAt (n : ℕ) (d : Fin 512) : Fin 4096 := ⟨(512 * (n % 8) + d.val) % 4096, Nat.mod_lt _ (by decide)⟩

theorem rowAt_val (n : ℕ) (hn : n < 1024) (p : Fin 1024) : (rowAt n p).val = 1024 * (n / 128) + p.val := by
  have := p.isLt; show (1024 * (n / 128) + p.val) % 8192 = _; omega
theorem chanAt_val (n : ℕ) (q : Fin 1024) : (chanAt n q).val = 1024 * (n / 8 % 16) + q.val := by
  have := q.isLt; show (1024 * (n / 8 % 16) + q.val) % 16384 = _; omega
theorem colAt_val (n : ℕ) (d : Fin 512) : (colAt n d).val = 512 * (n % 8) + d.val := by
  have := d.isLt; show (512 * (n % 8) + d.val) % 4096 = _; omega

/-- Within a contraction run (`n % 8 ≠ 0`) the point before works on the same row tile and channel tile. -/
theorem rowAt_pred (n : ℕ) (h0 : ¬n % 8 = 0) (p : Fin 1024) : rowAt (n - 1) p = rowAt n p :=
  Fin.ext (by show (1024 * ((n - 1) / 128) + p.val) % 8192 = (1024 * (n / 128) + p.val) % 8192; congr 2; congr 1; omega)
theorem chanAt_pred (n : ℕ) (h0 : ¬n % 8 = 0) (q : Fin 1024) : chanAt (n - 1) q = chanAt n q :=
  Fin.ext (by show (1024 * ((n - 1) / 8 % 16) + q.val) % 16384 = (1024 * (n / 8 % 16) + q.val) % 16384; congr 2; congr 1; omega)

/-- The windows' block indices at every point, decided once over the grid. -/
theorem index_facts : ∀ t : Fin cfg0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = 0 ∧ win0_2.index t (1 : Fin 2) = t.val / 8 % 16
    ∧ win0_3.index t (0 : Fin 2) = 0 ∧ win0_3.index t (1 : Fin 2) = t.val / 8 % 16
    ∧ win0_4.index t (0 : Fin 2) = t.val / 128 ∧ win0_4.index t (1 : Fin 2) = t.val / 8 % 16 :=
  (by decide +kernel : ∀ t : Fin grid0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = 0 ∧ win0_2.index t (1 : Fin 2) = t.val / 8 % 16
    ∧ win0_3.index t (0 : Fin 2) = 0 ∧ win0_3.index t (1 : Fin 2) = t.val / 8 % 16
    ∧ win0_4.index t (0 : Fin 2) = t.val / 128 ∧ win0_4.index t (1 : Fin 2) = t.val / 8 % 16)

variable {F : FTy → Type} [FloatOps F]
variable (m : (ℓ : Loc nD τ sig) → Buf (Elt F) ℓ)

theorem point_lt (t : Fin cfg0.N) : t.val < 1024 := lt_of_lt_of_eq t.isLt (show cfg0.N = 1024 from N_0)

/-- The activation block at `(p, d)`. -/
theorem act_block (c : Dev nD) (t : Fin cfg0.N) (p : Fin 1024) (d : Fin 512) :
    (iblk m c 0 t : Vec F S1024x512 .f32) (ix2 p d) = V m c main_v0 (ix2 (rowAt t.val p) (colAt t.val d)) := by
  have hN := point_lt t
  obtain ⟨h0, h1, -⟩ := index_facts t
  unfold iblk
  rw [View.read_apply]
  show V m c main_v0 _ = V m c main_v0 _
  refine congrArg (V m c main_v0) (funext fun a => Fin.ext ?_)
  match a with
  | ⟨0, _⟩ =>
    show win0_0.index t 0 * 1024 + 1 * p.val = (rowAt t.val p).val
    rw [h0, rowAt_val _ hN]; omega
  | ⟨1, _⟩ =>
    show win0_0.index t 1 * 512 + 1 * d.val = (colAt t.val d).val
    rw [h1, colAt_val]; omega

/-- The weight block at `(q, d)`. -/
theorem wgt_block (c : Dev nD) (t : Fin cfg0.N) (q : Fin 1024) (d : Fin 512) :
    (iblk m c 1 t : Vec F S1024x512 .i32) (ix2 q d) = V m c main_arg1 (ix2 (chanAt t.val q) (colAt t.val d)) := by
  obtain ⟨-, -, h0, h1, -⟩ := index_facts t
  unfold iblk
  rw [View.read_apply]
  show V m c main_arg1 _ = V m c main_arg1 _
  refine congrArg (V m c main_arg1) (funext fun a => Fin.ext ?_)
  match a with
  | ⟨0, _⟩ =>
    show win0_1.index t 0 * 1024 + 1 * q.val = (chanAt t.val q).val
    rw [h0, chanAt_val]; omega
  | ⟨1, _⟩ =>
    show win0_1.index t 1 * 512 + 1 * d.val = (colAt t.val d).val
    rw [h1, colAt_val]; omega

/-- The scale block at `(0, q)`. -/
theorem scale_block (c : Dev nD) (t : Fin cfg0.N) (q : Fin 1024) :
    (iblk m c 2 t : Vec F S1x1024 .f32) (ix2 (0 : Fin 1) q) = V m c main_v1 (ix2 (0 : Fin 1) (chanAt t.val q)) := by
  obtain ⟨-, -, -, -, h0, h1, -⟩ := index_facts t
  unfold iblk
  rw [View.read_apply]
  show V m c main_v1 _ = V m c main_v1 _
  refine congrArg (V m c main_v1) (funext fun a => Fin.ext ?_)
  match a with
  | ⟨0, _⟩ =>
    show win0_2.index t 0 * 1 + 1 * 0 = 0
    rw [h0]
  | ⟨1, _⟩ =>
    show win0_2.index t 1 * 1024 + 1 * q.val = (chanAt t.val q).val
    rw [h1, chanAt_val]; omega

/-- The bias block at `(0, q)`. -/
theorem bias_block (c : Dev nD) (t : Fin cfg0.N) (q : Fin 1024) :
    (iblk m c 3 t : Vec F S1x1024 .f32) (ix2 (0 : Fin 1) q) = V m c main_v2 (ix2 (0 : Fin 1) (chanAt t.val q)) := by
  obtain ⟨-, -, -, -, -, -, h0, h1, -⟩ := index_facts t
  unfold iblk
  rw [View.read_apply]
  show V m c main_v2 _ = V m c main_v2 _
  refine congrArg (V m c main_v2) (funext fun a => Fin.ext ?_)
  match a with
  | ⟨0, _⟩ =>
    show win0_3.index t 0 * 1 + 1 * 0 = 0
    rw [h0]
  | ⟨1, _⟩ =>
    show win0_3.index t 1 * 1024 + 1 * q.val = (chanAt t.val q).val
    rw [h1, chanAt_val]; omega

end Cert.KernelIdeal.Blocks

end
-- ==== Proof.Accum.lean ====
/-
  The accumulator after grid point `n`, at the ideal values: the partial contraction.

  Write `term r o e = x (r, e) · w (o, e)` for one product of the contraction (activation row `r`, weight channel `o`,
  feature `e`; the weight read as the integer it is). At point `n` the kernel is at step `n % 8` of the contraction run
  of its (row tile, channel tile); the accumulator's entry `(p, q)` is then the sum of the terms over the features
  below `512 · (n % 8 + 1)` — the first `n % 8 + 1` blocks of 512 —, for the row and channel that `(p, q)` are in the
  point's tiles. By induction on the point: the first step of a run starts from zero and adds block 0; any later step adds
  its block to what the point before left, and the point before belongs to the same run.
-/
import proofs.«177795_j82214263980556_1_alg».proof.Proof.Carried
import proofs.«177795_j82214263980556_1_alg».proof.Proof.Payload
import proofs.«177795_j82214263980556_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.Q8Gelu

variable (m : (ℓ : Loc nD τ sig) → Buf (Elt Ideal) ℓ)

/-- The [8192, 4096] activations and the [16384, 4096] integer weights as the kernel region finds them. -/
abbrev acts (c : Dev nD) : S8192x4096.Idx → EReal := V m c main_v0
abbrev wgts (c : Dev nD) : S16384x4096.Idx → BitVec 32 := V m c main_arg1

/-- One product of the contraction. -/
def term (c : Dev nD) (r : Fin 8192) (o : Fin 16384) (e : Fin 4096) : EReal :=
  acts m c (ix2 r e) * (((wgts m c (ix2 o e)).toInt : ℝ) : EReal)

/-- One accumulation step at point `t`, at `(p, q)`: the old entry plus the point's block of 512 terms. -/
theorem step_sum (c : Dev nD) (t : Fin cfg0.N) (acc : Vec Ideal S1024x1024 .f32) (p q : Fin 1024) :
    k0_pay2 (F := Ideal) (iblk m c 0 t) (iblk m c 1 t) acc (ix2 p q)
      = acc (ix2 p q) + ∑ d : Fin 512, term m c (rowAt t.val p) (chanAt t.val q) (colAt t.val d) := by
  refine (Payload.step_apply (iblk m c 0 t) (iblk m c 1 t) acc p q).trans ?_
  refine congrArg _ (Finset.sum_congr rfl fun d _ => ?_)
  rw [act_block m c t p d, wgt_block m c t q d]
  rfl

/-- THE INVARIANT of the contraction run. -/
theorem acc_eq (c : Dev nD) : ∀ (n : ℕ) (h : n < cfg0.N) (p q : Fin 1024),
    (outsAt0 m c n h).2 (ix2 p q)
      = ∑ e ∈ Finset.range (512 * (n % 8 + 1)), ext0 (term m c (rowAt n p) (chanAt n q)) e := by
  intro n
  induction n using Nat.strong_induction_on with
  | _ n ih =>
    intro h p q
    have hK : n % 8 < 8 := Nat.mod_lt _ (by decide)
    rw [sum_range_block (term m c (rowAt n p) (chanAt n q)) (n % 8) hK (colAt n) (fun d => colAt_val n d)]
    by_cases h0 : n % 8 = 0
    · rw [Carried.acc_at_first m c ⟨n, h⟩ h0, step_sum m c ⟨n, h⟩ _ p q, Payload.zero_apply]
      rw [h0, show Finset.range (512 * 0) = ∅ from rfl, Finset.sum_empty]
    · have hp : n - 1 < cfg0.N := Carried.pred_lt ⟨n, h⟩
      have hlt : n - 1 < n := by omega
      rw [Carried.acc_at_next m c ⟨n, h⟩ h0, step_sum m c ⟨n, h⟩ _ p q]
      refine congrArg (· + _) ?_
      show (outsAt0 m c (n - 1) hp).2 (ix2 p q) = _
      rw [ih (n - 1) hlt hp p q, rowAt_pred n h0 p, chanAt_pred n h0 q,
        show (n - 1) % 8 + 1 = n % 8 from by omega]

end Cert.KernelIdeal.Accum

end
-- ==== Proof.Final.lean ====
/-
  The kernel program's result, at the ideal values, as one function of its four arguments.

  * The region's output array. Only the last step of each contraction run writes its block back, and what it writes is
    the GELU of (whole contraction · scale + bias) at every entry of the [1024, 1024] tile of that run: the invariant of
    `Accum` at step 7 is the sum over all 4096 features. The 128 tiles cover the [8192, 16384] array, so the array ends
    at `tileOut`: entry `(r, o)` is the layer's value for activation row `r` and channel `o`.
  * Before the region the program only re-lays its arguments: the [4, 2048, 4096] activations as [8192, 4096] (row
    `2048 · b + s`), the scale and bias vectors as [1, 16384] rows. After it, it re-lays the [8192, 16384] result as
    [4, 2048, 16384]. A reshape keeps row-major positions, so the result at `(b, s, o)` is `tileOut` at
    `(2048 · b + s, o)`, which is the layer at `(b, s, o)`.
-/
import proofs.«177795_j82214263980556_1_alg».proof.Proof.Accum
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum Cert.Q8Gelu

variable (m : (ℓ : Loc nD τ sig) → Buf (Elt Ideal) ℓ) (ρ : Dev nD → PrngReg)

/-! ## The region's output array -/

/-- Entry `(r, o)` of the [8192, 16384] array the region leaves, over the arrays as the region finds them. -/
def tileOut (c : Dev nD) : S8192x16384.Idx → EReal := fun j =>
  gelu (affine (∑ e : Fin 4096, term m c (j 0) (j 1) e)
    (V m c main_v1 (ix2 (0 : Fin 1) (j 1))) (V m c main_v2 (ix2 (0 : Fin 1) (j 1))))

/-- Where entry `(p, q)` of point `t`'s output block sits in the array. -/
theorem out_emb (t : Fin cfg0.N) (p q : Fin 1024) :
    ((cfg0.win 4).blk t).view.emb (ix2 p q) = ix2 (rowAt t.val p) (chanAt t.val q) := by
  have hN := point_lt t
  obtain ⟨-, -, -, -, -, -, -, -, h0, h1⟩ := index_facts t
  refine funext fun a => Fin.ext ?_
  match a with
  | ⟨0, _⟩ =>
    show win0_4.index t 0 * 1024 + 1 * p.val = (rowAt t.val p).val
    rw [h0, rowAt_val _ hN]; omega
  | ⟨1, _⟩ =>
    show win0_4.index t 1 * 1024 + 1 * q.val = (chanAt t.val q).val
    rw [h1, chanAt_val]; omega

/-- WHAT A WRITE-BACK WRITES: at the last step of a run, the run's tile of `tileOut`. -/
theorem written_block (c : Dev nD) (t : Fin cfg0.N) (hf : (cfg0.win 4).flush t = true) :
    (dats m 0 c).flushed 4 t = ((cfg0.win 4).blk t).view.read (Elt Ideal) (tileOut m c) := by
  have h7 : t.val % 8 = 7 := (flush0_4 t).mp hf
  show (cfg0.win 4).cut (grid0.coords t) ((dats m 0 c).after 4 t) = _
  rw [after0_4, Carried.out_at_last m c t h7]
  funext y
  obtain ⟨p, q, rfl⟩ : ∃ (p q : Fin 1024), y = ix2 p q := ⟨y 0, y 1, eq_ix2 y⟩
  rw [View.read_apply, out_emb t p q]
  show k0_pay3 (F := Ideal) (outsAt0 m c t.val t.isLt).2 (iblk m c 2 t) (iblk m c 3 t) (ix2 p q) = _
  refine (Payload.act_apply (outsAt0 m c t.val t.isLt).2 (iblk m c 2 t) (iblk m c 3 t) p q).trans ?_
  rw [acc_eq m c t.val t.isLt p q, h7, sum_range_all, scale_block m c t q, bias_block m c t q]
  rfl

/-- An index of the array is in point `t`'s block iff each coordinate is in the block's range on its axis. -/
theorem mem_block (t : Fin cfg0.N) (i : S8192x16384.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every entry of the array is in the block some run's last step writes back. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hN : cfg0.N = 1024 := N_0
  obtain ⟨n, hn⟩ : ∃ n, n = ((i 0).val / 1024 * 16 + (i 1).val / 1024) * 8 + 7 := ⟨_, rfl⟩
  have hlt : n < cfg0.N := by rw [hN]; omega
  refine ⟨⟨n, hlt⟩, (flush0_4 _).mpr (by show n % 8 = 7; omega), ?_⟩
  rw [mem_block]
  obtain ⟨-, -, -, -, -, -, -, -, h0, h1⟩ := index_facts ⟨n, hlt⟩
  intro a
  match a with
  | ⟨0, _⟩ =>
    show win0_4.index ⟨n, hlt⟩ 0 * 1024 ≤ (i 0).val ∧ (i 0).val < win0_4.index ⟨n, hlt⟩ 0 * 1024 + 1024
    rw [h0]; show n / 128 * 1024 ≤ (i 0).val ∧ (i 0).val < n / 128 * 1024 + 1024; omega
  | ⟨1, _⟩ =>
    show win0_4.index ⟨n, hlt⟩ 1 * 1024 ≤ (i 1).val ∧ (i 1).val < win0_4.index ⟨n, hlt⟩ 1 * 1024 + 1024
    rw [h1]; show n / 8 % 16 * 1024 ≤ (i 1).val ∧ (i 1).val < n / 8 % 16 * 1024 + 1024; omega

/-- THE ARRAY AFTER THE REGION. -/
theorem out_array (c : Dev nD) : (dats m 0 c).arrAt 4 cfg0.N = tileOut m c :=
  (dats m 0 c).arrAt_eq_of_cover 4 (tileOut m c) (written_block m c) covered

/-! ## The arrays the region finds: the arguments re-laid -/

theorem acts_eq (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

theorem scales_eq (c : Dev nD) : (V m c main_v1 : S1x16384.Idx → EReal)
    = shapeCast S1x16384 (m ((c : Thread nD τ).loc main_arg2)) shapeCasts_S16384_S1x16384 := by
  show StableHlo.after hostOps0 (fun b => m (c, b)) (Proc.devRef .tc main_v1) = _
  after_results
  rfl

theorem biases_eq (c : Dev nD) : (V m c main_v2 : S1x16384.Idx → EReal)
    = shapeCast S1x16384 (m ((c : Thread nD τ).loc main_arg3)) shapeCasts_S16384_S1x16384 := by
  show StableHlo.after hostOps0 (fun b => m (c, b)) (Proc.devRef .tc main_v2) = _
  after_results
  rfl

/-- Row `2048 · b + s` of the re-laid activations is row `(b, s)` of the argument. -/
theorem acts_apply (c : Dev nD) (b : Fin 4) (s : Fin 2048) (r : Fin 8192) (hr : r.val = 2048 * b.val + s.val) (e : Fin 4096) :
    V m c main_v0 (ix2 r e) = m ((c : Thread nD τ).loc main_arg0) (ix3 b s e) := by
  rw [acts_eq m c]
  refine shapeCast_apply _ _ _ _ ?_
  show (S4x2048x4096.rowMajor (ix3 b s e)).val = (S8192x4096.rowMajor (ix2 r e)).val
  rw [Shape.rowMajor_val_three, Shape.rowMajor_val_two]
  show (b.val * 2048 + s.val) * 4096 + e.val = r.val * 4096 + e.val
  rw [hr]; ring

theorem scales_apply (c : Dev nD) (o : Fin 16384) :
    V m c main_v1 (ix2 (0 : Fin 1) o) = m ((c : Thread nD τ).loc main_arg2) (ix1 o) := by
  rw [scales_eq m c]
  exact shapeCast_a_1a_apply _ _ 0 o

theorem biases_apply (c : Dev nD) (o : Fin 16384) :
    V m c main_v2 (ix2 (0 : Fin 1) o) = m ((c : Thread nD τ).loc main_arg3) (ix1 o) := by
  rw [biases_eq m c]
  exact shapeCast_a_1a_apply _ _ 0 o

/-! ## The program's result -/

/-- The result the program ends with: the layer of its four arguments. -/
abbrev result (c : Dev nD) : S4x2048x16384.Idx → EReal :=
  layer (m ((c : Thread nD τ).loc main_arg0)) (m ((c : Thread nD τ).loc main_arg1))
    (m ((c : Thread nD τ).loc main_arg2)) (m ((c : Thread nD τ).loc main_arg3))

/-- The re-laid output array is the layer, index by index. -/
theorem tail_eq (c : Dev nD) :
    shapeCast S4x2048x16384 (tileOut m c) shapeCasts_S8192x16384_S4x2048x16384 = result m c := by
  funext i
  obtain ⟨b, s, o, rfl⟩ : ∃ (b : Fin 4) (s : Fin 2048) (o : Fin 16384), i = ix3 b s o := ⟨i 0, i 1, i 2, eq_ix3 i⟩
  have hb := b.isLt
  have hs := s.isLt
  have hr : 2048 * b.val + s.val < 8192 := by omega
  rw [shapeCast_apply (tileOut m c) shapeCasts_S8192x16384_S4x2048x16384 (ix3 b s o) (ix2 ⟨2048 * b.val + s.val, hr⟩ o) (by
    rw [Shape.rowMajor_val_three, Shape.rowMajor_val_two]
    show (2048 * b.val + s.val) * 16384 + o.val = (b.val * 2048 + s.val) * 16384 + o.val
    ring)]
  show gelu (affine (∑ e : Fin 4096, term m c ⟨2048 * b.val + s.val, hr⟩ o e)
      (V m c main_v1 (ix2 (0 : Fin 1) o)) (V m c main_v2 (ix2 (0 : Fin 1) o))) = _
  rw [scales_apply m c o, biases_apply m c o]
  refine congrArg (fun x => gelu (affine x _ _)) (Finset.sum_congr rfl fun e _ => ?_)
  unfold term acts wgts
  rw [acts_apply m c b s ⟨2048 * b.val + s.val, hr⟩ rfl e, V_main_arg1 m c]

/-- What the program's last line writes. -/
theorem tail_result (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [Pipeline.withArrays_arr spec0 launch0.win.arr_inj c _ _ 4, out_array m c]
  exact tail_eq m c

/-- THE RUN, READ: every weakly fair execution of the program ends with its result at the layer of the arguments and
    the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefSide.lean ====
/-
  The reference program computes the layer.

  Its 25 host operations, read one at a time at an output index `(b, s, o)`: the integer weights converted to floats
  (at the ideal values: the integers they are), contracted with the activations over the 4096 input features, times the
  channel's scale, plus its bias (both broadcast over `b` and `s`), and then the tanh-approximate GELU with the half
  applied to the bracket: `y · (½ · (1 + tanh (c₂ · (y + c₁ · y³))))`.
-/
import proofs.«177795_j82214263980556_1_alg».proof.Proof.Gen.ReferenceIdeal.Read
import proofs.«177795_j82214263980556_1_alg».proof.Proof.Spec

noncomputable section

open Idealize.ShloMosaic Idealize.ShloMosaic.ValueIdx

namespace Cert.ReferenceIdeal.RefValue

open Cert.ReferenceIdeal Cert.ReferenceIdeal.Read Cert.Q8Gelu

/-- The pre-activation at `(b, s, o)`. -/
theorem pre_eq (x0 : (⟨S4x2048x4096, .f32⟩ : BufTy).Contents (Elt Ideal)) (x1 : (⟨S16384x4096, .i32⟩ : BufTy).Contents (Elt Ideal))
    (x2 x3 : (⟨S16384, .f32⟩ : BufTy).Contents (Elt Ideal)) (i : S4x2048x16384.Idx) :
    val_main_v7 (F := Ideal) x0 x1 x2 x3 i
      = affine (∑ e : Fin 4096, x0 (ix3 (i 0) (i 1) e) * (((x1 (ix2 (i 2) e)).toInt : ℝ) : EReal))
          (x2 (ix1 (i 2))) (x3 (ix1 (i 2))) := by
  have el : ∀ k, lidx_main_v1 i k = ix3 (i 0) (i 1) k := fun k => funext fun a => Fin.ext (by
    match a with
    | ⟨0, _⟩ => rfl
    | ⟨1, _⟩ => rfl
    | ⟨2, _⟩ => rfl)
  have er : ∀ k, ridx_main_v1 i k = ix2 (i 2) k := fun k => funext fun a => Fin.ext (by
    match a with
    | ⟨0, _⟩ => rfl
    | ⟨1, _⟩ => rfl)
  have e2 : idx_main_v2 (idx_main_v3 i) = ix1 (i 2) := funext fun a => Fin.ext (by
    match a with
    | ⟨0, _⟩ => rfl)
  have e5 : idx_main_v5 (idx_main_v6 i) = ix1 (i 2) := funext fun a => Fin.ext (by
    match a with
    | ⟨0, _⟩ => rfl)
  rw [val_main_v7_apply, val_main_v4_apply, val_main_v1_apply, val_main_v3_apply, val_main_v2_apply,
    val_main_v6_apply, val_main_v5_apply, e2, e5]
  simp only [val_main_v0_apply, el, er]
  rfl

/-- The reference's result is the layer of its four arguments. -/
theorem result_eq (x0 : (⟨S4x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v20 (F := Ideal) x0 x1 x2 x3 = layer x0 x1 x2 x3 := by
  funext i
  rw [val_main_v20_apply, val_main_v19_apply, val_main_v18_apply, val_main_cst_2_apply, val_main_v17_apply,
    val_main_v16_apply, val_main_cst_1_apply, val_main_v15_apply, val_main_v14_apply, val_main_v13_apply,
    val_main_cst_0_apply, val_main_v12_apply, val_main_v11_apply, val_main_v10_apply, val_main_cst_apply,
    val_main_v9_apply, val_main_v8_apply, pre_eq]
  exact mul_half_bracket _

end Cert.ReferenceIdeal.RefValue

end
-- ==== Proof.lean ====
/-
  An int8-quantized linear layer fused with the tanh-approximate GELU, computed tile by tile, against the plain
  whole-array reference — equal over the extended reals.

  Both programs compute, for every output `(b, s, o)`,

      gelu ((∑ₑ x (b, s, e) · w (o, e)) · scale o + bias o)

  (`Spec.layer`). The kernel walks an 8 × 16 × 8 grid: for each [1024, 1024] output tile it accumulates eight
  [1024, 512] × [1024, 512]ᵀ tile products into a scratch accumulator, and at the eighth applies scale, bias and GELU
  and writes the tile back; around the kernel the program only reshapes. That the accumulated tile products are the whole
  contraction is associativity and commutativity of addition of extended reals (`Accum`, `Spec`); the activation is the
  same expression on both sides up to the placing of the factor ½ (`Spec.mul_half_bracket`); the conversions of format
  before the tile product are the identity at the ideal values and the integer weights are the same integers on both
  sides. No step needs the inputs finite, so the precondition is never opened.

  The three frames are the generated frame runs (the reference's is its generated run with the result dropped); the
  idealization rewrote nothing, so `preserves` is `True`.
-/
import proofs.«177795_j82214263980556_1_alg».proof.Defs
import proofs.«177795_j82214263980556_1_alg».proof.Proof.Gen.Kernel
import proofs.«177795_j82214263980556_1_alg».proof.Proof.Gen.Kernel.Frame
import proofs.«177795_j82214263980556_1_alg».proof.Proof.Gen.KernelIdeal
import proofs.«177795_j82214263980556_1_alg».proof.Proof.Gen.KernelIdeal.Frame
import proofs.«177795_j82214263980556_1_alg».proof.Proof.Gen.ReferenceIdeal
import proofs.«177795_j82214263980556_1_alg».proof.Proof.Gen.ReferenceIdeal.Run
import proofs.«177795_j82214263980556_1_alg».proof.Proof.Gen.Pre_finite_inputs
import proofs.«177795_j82214263980556_1_alg».proof.Proof.Final
import proofs.«177795_j82214263980556_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end at the layer of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
